-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x1024 .f32 .bf16
  ∧ IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8x4096 : Shape := ⟨2, ![8, 4096]⟩
abbrev S8x256x512 : Shape := ⟨3, ![8, 256, 512]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S8x4096 32) (main_arg2 : FVec F S8x256x512 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S8x256x512 .f32 := Host.absf main_arg2
  let main_cst_0 : FVec F S_ .f32 := constant S_ .f32 0x7F800000#32
  let main_v5 : FVec F S8x256x512 .f32 := broadcastInDim S8x256x512 ![] bcast_S_S8x256x512 main_cst_0
  let main_v6 : IVec S8x256x512 1 := cmpf .olt main_v4 main_v5
  let main_c_1 : IVec S_ 1 := constantI S_ 1 1#1
  let main_v7 : IVec S_ 1 := (fun x v => Host.reduce IntOp.andi x v reducesTo_S8x256x512_S_d0_1_2 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S8x4096 : Shape := ⟨2, ![8, 4096]⟩
abbrev S8x256x512 : Shape := ⟨3, ![8, 256, 512]⟩
abbrev S4096 : Shape := ⟨1, ![4096]⟩
abbrev S_ : Shape := ⟨0, ![]⟩
abbrev S8x4096x1 : Shape := ⟨3, ![8, 4096, 1]⟩
abbrev S8x4096x512 : Shape := ⟨3, ![8, 4096, 512]⟩
abbrev S8192x4096 : Shape := ⟨2, ![8192, 4096]⟩
abbrev S1x4096 : Shape := ⟨2, ![1, 4096]⟩
abbrev S1024x1024 : Shape := ⟨2, ![1024, 1024]⟩
abbrev S1x1024x512 : Shape := ⟨3, ![1, 1024, 512]⟩
abbrev S1x512 : Shape := ⟨2, ![1, 512]⟩
abbrev S1024x512 : Shape := ⟨2, ![1024, 512]⟩

abbrev nBuf : Space → Nat
  | .hbm => 17
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S8x4096, .i32⟩
  | .hbm, ⟨2, _⟩ => ⟨S8x256x512, .f32⟩
  | .hbm, ⟨3, _⟩ => ⟨S4096, .f32⟩
  | .hbm, ⟨4, _⟩ => ⟨S_, .i32⟩
  | .hbm, ⟨5, _⟩ => ⟨S8x4096, .i32⟩
  | .hbm, ⟨6, _⟩ => ⟨S8x4096, .i1⟩
  | .hbm, ⟨7, _⟩ => ⟨S_, .i32⟩
  | .hbm, ⟨8, _⟩ => ⟨S8x4096, .i32⟩
  | .hbm, ⟨9, _⟩ => ⟨S8x4096, .i32⟩
  | .hbm, ⟨10, _⟩ => ⟨S8x4096, .i32⟩
  | .hbm, ⟨11, _⟩ => ⟨S8x4096x1, .i32⟩
  | .hbm, ⟨12, _⟩ => ⟨S8x4096x512, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  shapeCasts_S4x2048x4096_S8192x4096 : S4x2048x4096.ShapeCasts S8192x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x4096_S4x2048x4096 : S8192x4096.ShapeCasts S4x2048x4096
  gather_S8x256x512_S8x4096x1_S8x4096x512_2_1_0_0_1_2_11512_wf : GatherDims.WF S8x256x512 S8x4096x1 S8x4096x512 [2] [1] [0] [1] [0] 2 ![1, 1, 512]
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x4096x512.size a
  hwx0_1 : ∀ i : grid0.Coords, EltTy.bits .f32 = 32 ∨ (Rect.block (s := S8x4096x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def gather_S8x256x512_S8x4096x1_S8x4096x512_2_1_0_0_1_2_11512 : GatherDims S8x256x512 S8x4096x1 S8x4096x512 where
  offsetDims := [2]
  collapsedSliceDims := [1]
  operandBatchingDims := [0]
  startIndicesBatchingDims := [0]
  startIndexMap := [1]
  indexVectorDim := 2
  sliceSizes := ![1, 1, 512]
  wf := gather_S8x256x512_S8x4096x1_S8x4096x512_2_1_0_0_1_2_11512_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S8x4096 : Shape := ⟨2, ![8, 4096]⟩
abbrev S8x256x512 : Shape := ⟨3, ![8, 256, 512]⟩
abbrev S4096 : Shape := ⟨1, ![4096]⟩
abbrev S_ : Shape := ⟨0, ![]⟩
abbrev S8x4096x1 : Shape := ⟨3, ![8, 4096, 1]⟩
abbrev S8x4096x512 : Shape := ⟨3, ![8, 4096, 512]⟩
abbrev S8x512x4096 : Shape := ⟨3, ![8, 512, 4096]⟩
abbrev S4096x4096 : Shape := ⟨2, ![4096, 4096]⟩
abbrev S1x1x4096 : Shape := ⟨3, ![1, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x4096, .i32⟩
  | .hbm, ⟨2, _⟩ => ⟨S8x256x512, .f32⟩
  | .hbm, ⟨3, _⟩ => ⟨S4096, .f32⟩
  | .hbm, ⟨4, _⟩ => ⟨S_, .i32⟩
  | .hbm, ⟨5, _⟩ => ⟨S8x4096, .i32⟩
  | .hbm, ⟨6, _⟩ => ⟨S8x4096, .i1⟩
  | .hbm, ⟨7, _⟩ => ⟨S_, .i32⟩
  | .hbm, ⟨8, _⟩ => ⟨S8x4096, .i32⟩
  | .hbm, ⟨9, _⟩ => ⟨S8x4096, .i32⟩
  | .hbm, ⟨10, _⟩ => ⟨S8x4096, .i32⟩
  | .hbm, ⟨11, _⟩ => ⟨S8x4096x1, .i32⟩
  | .hbm, ⟨12, _⟩ => ⟨S8x4096x512, .f32⟩
  | .hbm, ⟨13, _⟩ => ⟨S8x512x4096, .f32⟩
  | .hbm, ⟨14, _⟩ => ⟨S4096x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  transposes_S8x4096x512_S8x512x4096_0_2_1 : S8x4096x512.Transposes [0, 2, 1] S8x512x4096
  shapeCasts_S8x512x4096_S4096x4096 : S8x512x4096.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S8x256x512_S8x4096x1_S8x4096x512_2_1_0_0_1_2_11512_wf : GatherDims.WF S8x256x512 S8x4096x1 S8x4096x512 [2] [1] [0] [1] [0] 2 ![1, 1, 512]
  dot_S4x2048x4096_S4096x4096_S4x2048x4096_2_1_01_0_n_n_wf : DotDims.WF S4x2048x4096 S4096x4096 S4x2048x4096 [2] [1] [0, 1] [0] [] []

variable [Facts₀]

def gather_S8x256x512_S8x4096x1_S8x4096x512_2_1_0_0_1_2_11512 : GatherDims S8x256x512 S8x4096x1 S8x4096x512 where
  offsetDims := [2]
  collapsedSliceDims := [1]
  operandBatchingDims := [0]
  startIndicesBatchingDims := [0]
  startIndexMap := [1]
  indexVectorDim := 2
  sliceSizes := ![1, 1, 512]
  wf := gather_S8x256x512_S8x4096x1_S8x4096x512_2_1_0_0_1_2_11512_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Reals.lean ====
/-
  Two facts about extended reals that the whole proof rests on.

  * A real number minus itself is zero; an infinity minus itself is not.  This is where finiteness of the inputs is
    used: the kernel splits each matrix entry a into a "high part" a and a "low part" a - a.
  * A sum of 4096 terms is the sum of its four consecutive runs of 1024 terms, added in order onto zero.  This is the
    only re-association between the kernel, which accumulates over four steps, and the reference's one sum.
-/
import Idealize.ShloMosaic.PureOps.Ideal
import Mathlib.Algebra.BigOperators.Fin

noncomputable section

open Idealize.ShloMosaic

namespace Cert.Reals

/-- Every entry of an array is a real number (neither infinity). -/
def AllReal {S : Shape} (x : S.Idx → EReal) : Prop := ∀ i, ∃ r : ℝ, x i = (r : EReal)

/-- A real number minus itself is zero on the extended reals. -/
theorem sub_self_of_real {a : EReal} (h : ∃ r : ℝ, a = (r : EReal)) : a - a = 0 := by
  obtain ⟨r, rfl⟩ := h
  rw [← EReal.coe_sub, sub_self, EReal.coe_zero]

/-- A sum over 4096 positions as four runs of 1024, accumulated in order from zero. -/
theorem sum_four_tiles {M : Type*} [AddCommMonoid M] (f : ℕ → M) :
    ∑ j : Fin 4096, f j.val
      = (((0 + ∑ k : Fin 1024, f k.val) + ∑ k : Fin 1024, f (1024 + k.val)) + ∑ k : Fin 1024, f (2048 + k.val))
          + ∑ k : Fin 1024, f (3072 + k.val) := by
  rw [← Finset.sum_range f, ← Finset.sum_range f, ← Finset.sum_range (fun x => f (1024 + x)),
    ← Finset.sum_range (fun x => f (2048 + x)), ← Finset.sum_range (fun x => f (3072 + x))]
  have e1 : ∑ x ∈ Finset.range 4096, f x = ∑ x ∈ Finset.range 3072, f x + ∑ x ∈ Finset.range 1024, f (3072 + x) :=
    Finset.sum_range_add f 3072 1024
  have e2 : ∑ x ∈ Finset.range 3072, f x = ∑ x ∈ Finset.range 2048, f x + ∑ x ∈ Finset.range 1024, f (2048 + x) :=
    Finset.sum_range_add f 2048 1024
  have e3 : ∑ x ∈ Finset.range 2048, f x = ∑ x ∈ Finset.range 1024, f x + ∑ x ∈ Finset.range 1024, f (1024 + x) :=
    Finset.sum_range_add f 1024 1024
  rw [e1, e2, e3, zero_add]

end Cert.Reals

end
-- ==== Proof.Finite.lean ====
/-
  What the precondition gives: every entry of x and of the codebooks is a real number.

  The precondition is the conjunction of three "all |entry| < +inf" tests, one per float argument.  On the extended
  reals |a| = max a (-a) is +inf exactly at the two infinities, so the test passing at an entry says the entry is real.
-/
import proofs.«114664_j3255585210641_2_alg».proof.Pre_finite_inputs
import proofs.«114664_j3255585210641_2_alg».proof.Proof.Gen.Pre_finite_inputs
import proofs.«114664_j3255585210641_2_alg».proof.Proof.Reals
import Idealize.ShloMosaic.Lib.ReduceAll
import Idealize.ShloMosaic.Lib.ValueIdx
import Idealize.ShloMosaic.PureOps.Ideal.Laws

noncomputable section

open Idealize.ShloMosaic

namespace Cert.Pre_finite_inputs.Finite

open Cert.Pre_finite_inputs Cert.Reals

instance : Subsingleton S_.Idx := ⟨fun a b => funext fun d => d.elim0⟩

/-- The f32 word 0x7F800000 is +inf. -/
theorem top_word : Ideal.ofBits .f32 0x7F800000#32 = ⊤ := by simp [Ideal.ofBits, Ideal.ieee]

/-- An extended real whose absolute value is below +inf is a real number. -/
theorem real_of_abs_lt_top {a : EReal} (h : Ideal.cmp .olt (max a (-a)) ⊤ = 1#1) : ∃ r : ℝ, a = (r : EReal) := by
  induction a using EReal.rec with
  | bot => exfalso; simp [Ideal.cmp] at h
  | coe r => exact ⟨r, rfl⟩
  | top => exfalso; simp [Ideal.cmp] at h

/-- The precondition passing makes x and the codebooks real entry by entry. -/
theorem reals_of_pre (x0 : FVec Ideal S4x2048x4096 .f32) (x1 : IVec S8x4096 32) (x2 : FVec Ideal S8x256x512 .f32)
    (x3 : FVec Ideal S4096 .f32) (h : fn (F := Ideal) x0 x1 x2 x3 = fun _ => 1#1) : AllReal x0 ∧ AllReal x2 := by
  have h1 := congrFun h ValueIdx.ix0
  dsimp only [fn] at h1
  obtain ⟨h12, _⟩ := IntOp.andi_eq_one.1 h1
  obtain ⟨ha, hb⟩ := IntOp.andi_eq_one.1 h12
  refine ⟨fun i => ?_, fun i => ?_⟩
  · have e : Ideal.cmp .olt (max (x0 i) (-(x0 i))) (Ideal.ofBits .f32 0x7F800000#32) = 1#1 :=
      Host.reduce_andi_all _ _ _ _ _ ha i
    rw [top_word] at e
    exact real_of_abs_lt_top e
  · have e : Ideal.cmp .olt (max (x2 i) (-(x2 i))) (Ideal.ofBits .f32 0x7F800000#32) = 1#1 :=
      Host.reduce_andi_all _ _ _ _ _ hb i
    rw [top_word] at e
    exact real_of_abs_lt_top e

end Cert.Pre_finite_inputs.Finite

end
-- ==== Proof.Pieces.lean ====
/-
  What each control case of the kernel body leaves behind, as a value.

  The body keeps a running block `acc` in a scratch buffer.  At the first step of a row of the grid's last axis
  it stores zeros there; at every step it reads the scratch back and stores `acc + (x·w + x·w_lo + x_lo·w)`
  (the payload `k0_pay2`); at the last step it also stores `acc + bias` into the output block (`k0_pay3`).
  So the scratch after a first step is `k0_pay2 x w 0`, after any later step `k0_pay2 x w acc`, and the
  output block after a last step is `k0_pay3 (k0_pay2 x w acc) bias`.
-/
import proofs.«114664_j3255585210641_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- A first step (the scratch is zeroed, read back, and accumulated into): the scratch ends at the accumulating
    payload over the zero block. -/
theorem scratch_first (c : Dev nD) (i : grid0.Coords) (arg3 : Memref sig .tc .vmem S1024x1024 .f32) (harg3 : arg3.IsWhole) (arg4 : Memref sig .tc .vmem S1x1024x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x1024 .f32) (x1 : Vec F S1x1024x512 .f32) (x2 : Vec F S1x512 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x512) off2, View.readCov_unit_zero (S := S1024x512) _ off2]
  simp only [View.readAt_eq_ld, harg3.read_unread, harg4.read_unread, harg5.read_unread, harg7.read_unread,
    View.ld_unit_zero (S := S1024x1024) off2, View.ld_unit_zero (S := S1x1024x512) off3,
    View.ld_unit_zero (S := S1024x512) off2, View.ld_unit_zero (S := S1x512) off2]

/-- A middle step: the scratch ends at the accumulating payload of the two input blocks and what it held. -/
theorem scratch_mid (c : Dev nD) (i : grid0.Coords) (arg3 : Memref sig .tc .vmem S1024x1024 .f32) (harg3 : arg3.IsWhole) (arg4 : Memref sig .tc .vmem S1x1024x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i) (x0 : Vec F S1024x1024 .f32) (x1 : Vec F S1x1024x512 .f32) (x2 : Vec F S1x512 .f32) (xs0 : Vec F S1024x512 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero off2]
  simp only [View.readAt_eq_ld, harg3.read_unread, harg4.read_unread, harg5.read_unread, harg7.read_unread,
    View.ld_unit_zero (S := S1024x1024) off2, View.ld_unit_zero (S := S1x1024x512) off3,
    View.ld_unit_zero (S := S1024x512) off2, View.ld_unit_zero (S := S1x512) off2]

/-- A last step leaves the same in the scratch; -/
theorem scratch_last (c : Dev nD) (i : grid0.Coords) (arg3 : Memref sig .tc .vmem S1024x1024 .f32) (harg3 : arg3.IsWhole) (arg4 : Memref sig .tc .vmem S1x1024x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i) (x0 : Vec F S1024x1024 .f32) (x1 : Vec F S1x1024x512 .f32) (x2 : Vec F S1x512 .f32) (xs0 : Vec F S1024x512 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero off2]
  simp only [View.readAt_eq_ld, harg3.read_unread, harg4.read_unread, harg5.read_unread, harg7.read_unread,
    View.ld_unit_zero (S := S1024x1024) off2, View.ld_unit_zero (S := S1x1024x512) off3,
    View.ld_unit_zero (S := S1024x512) off2, View.ld_unit_zero (S := S1x512) off2]

/-- and the output block at that scratch plus the bias row. -/
theorem out_last (c : Dev nD) (i : grid0.Coords) (arg3 : Memref sig .tc .vmem S1024x1024 .f32) (harg3 : arg3.IsWhole) (arg4 : Memref sig .tc .vmem S1x1024x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i) (x0 : Vec F S1024x1024 .f32) (x1 : Vec F S1x1024x512 .f32) (x2 : Vec F S1x512 .f32) (xs0 : Vec F S1024x512 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero off2, View.readCov_unit_zero (S := S1024x512) _ off2]
  simp only [View.readAt_eq_ld, harg3.read_unread, harg4.read_unread, harg5.read_unread, harg7.read_unread,
    View.ld_unit_zero (S := S1024x1024) off2, View.ld_unit_zero (S := S1x1024x512) off3,
    View.ld_unit_zero (S := S1024x512) off2, View.ld_unit_zero (S := S1x512) off2]

end Cert.KernelIdeal.Pieces

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«114664_j3255585210641_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.Payloads.lean ====
/-
  The body's three stored values read at one entry, at the ideal values.

  With x the 1024 x 1024 block of the left matrix, w the 1024 x 512 block of the gathered weights and acc the running
  block, the accumulating store is  acc + ((x·w + x·(w - w)) + (x - x)·w)  entry by entry: the two-term split of each
  operand keeps its "low part" a - a, because a change of float format is the identity on extended reals.  For real
  (finite) entries a - a = 0, the two products with a zero factor vanish, and the store is  acc + x·w.
-/
import proofs.«114664_j3255585210641_2_alg».proof.Proof.Gen.KernelIdeal.Skeleton
import proofs.«114664_j3255585210641_2_alg».proof.Proof.LibMatRows
import proofs.«114664_j3255585210641_2_alg».proof.Proof.Reals
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen Cert.Reals

/-- The printed dimension record is a plain rows-times-matrix product. -/
theorem plain : LibMatRows.RowsTimesMat (a := 1024) (k := 1024) (n := 512) dot_S1024x1024_S1024x512_S1024x512_1_0_0_1_n_n where
  rank := rfl
  size := rfl
  l0 := fun i q => by
    unfold DotDims.lhsIdx
    rw [dif_neg (show ¬(0 : Fin S1024x1024.rank) ∈ dot_S1024x1024_S1024x512_S1024x512_1_0_0_1_n_n.lhsBatch by decide),
      dif_pos (show (0 : Fin S1024x1024.rank) ∈ dot_S1024x1024_S1024x512_S1024x512_1_0_0_1_n_n.lhsNonContracting by decide)]
    rfl
  l1 := fun i q => dot_S1024x1024_S1024x512_S1024x512_1_0_0_1_n_n.lhsIdx_val_of_single rfl i q
  r0 := fun i q => dot_S1024x1024_S1024x512_S1024x512_1_0_0_1_n_n.rhsIdx_val_of_single rfl i q
  r1 := fun i q => by
    unfold DotDims.rhsIdx
    rw [dif_neg (show ¬(1 : Fin S1024x512.rank) ∈ dot_S1024x1024_S1024x512_S1024x512_1_0_0_1_n_n.rhsBatch by decide),
      dif_pos (show (1 : Fin S1024x512.rank) ∈ dot_S1024x1024_S1024x512_S1024x512_1_0_0_1_n_n.rhsNonContracting by decide)]
    rfl

/-- The zero block. -/
theorem pay1_apply (j : S1024x512.Idx) : k0_pay1 (F := Ideal) j = 0 := by
  unfold k0_pay1
  rw [shapeCast_self]
  show Ideal.ofBits .f32 0x00000000#32 = 0
  exact Ideal.ofBits_zero_f32

/-- The accumulating store at entry (p, q): for real blocks, the old entry plus row p of x times column q of w. -/
theorem pay2_apply (x : Vec Ideal S1024x1024 .f32) (w : Vec Ideal S1x1024x512 .f32) (acc : Vec Ideal S1024x512 .f32)
    (hx : AllReal x) (hw : AllReal w) (p : Fin 1024) (q : Fin 512) :
    k0_pay2 (F := Ideal) x w acc (ix2 p q) = acc (ix2 p q) + ∑ k : Fin 1024, x (ix2 p k) * w (ix3 (0 : Fin 1) k q) := by
  unfold k0_pay2
  simp only [shapeCast_self, addf_apply, LibMatRows.matmul_rows plain, truncf_apply, subf_apply, shapeCast_1ab_ab_apply]
  have e2 : ∀ j : Fin 1024, x (ix2 p j) * (w (ix3 (0 : Fin 1) j q) - w (ix3 (0 : Fin 1) j q)) = 0 := fun j => by
    rw [sub_self_of_real (hw _), mul_zero]
  have e3 : ∀ j : Fin 1024, (x (ix2 p j) - x (ix2 p j)) * w (ix3 (0 : Fin 1) j q) = 0 := fun j => by
    rw [sub_self_of_real (hx _), zero_mul]
  simp only [e2, e3, Finset.sum_const_zero, add_zero]

/-- The output store at entry (p, q): the scratch entry plus the bias row's entry q. -/
theorem pay3_apply (v : Vec Ideal S1024x512 .f32) (b : Vec Ideal S1x512 .f32) (p : Fin 1024) (q : Fin 512) :
    k0_pay3 (F := Ideal) v b (ix2 p q) = v (ix2 p q) + b (ix2 (0 : Fin 1) q) := by
  unfold k0_pay3
  simp only [shapeCast_self, addf_apply, broadcastTo_1b_ab_apply]

end Cert.KernelIdeal.Payloads

end
-- ==== Proof.Accumulate.lean ====
/-
  The running block across the four steps of the contraction.

  Points 4u, 4u+1, 4u+2, 4u+3 share a row tile and a codebook and walk the contraction in four runs of 1024.  The
  scratch holds  0 + B(4u)  after the first,  then adds  B(t)  at each later point, where B(t) at entry (p, q) is row p of
  the point's left block times column q of its weight block (for real blocks: the low-part products vanish).  At the
  fourth point the output block is that total plus the bias row.
-/
import proofs.«114664_j3255585210641_2_alg».proof.Proof.Gen.KernelIdeal.Frame
import proofs.«114664_j3255585210641_2_alg».proof.Proof.Pieces
import proofs.«114664_j3255585210641_2_alg».proof.Proof.Payloads
import proofs.«114664_j3255585210641_2_alg».proof.Proof.Reals

noncomputable section

open Idealize.ShloMosaic Idealize.ShloMosaic.TcCoe Idealize.SL.Sem Idealize.ShloMosaic.ValueIdx

namespace Cert.KernelIdeal.Accumulate

open Cert.KernelIdeal Cert.KernelIdeal.Gen Cert.Reals

variable (m : (ℓ : Loc nD τ sig) → Buf (Elt Ideal) ℓ)

/-- The left, weight and bias blocks at point t, as arrays of extended reals. -/
abbrev lhsAt (c : Dev nD) (t : Fin cfg0.N) : S1024x1024.Idx → EReal := iblk m c 0 t
abbrev tableAt (c : Dev nD) (t : Fin cfg0.N) : S1x1024x512.Idx → EReal := iblk m c 1 t
abbrev biasAt (c : Dev nD) (t : Fin cfg0.N) : S1x512.Idx → EReal := iblk m c 2 t

/-- Row p of the left block times column q of the weight block, at point t. -/
def blockDot (c : Dev nD) (t : Fin cfg0.N) (p : Fin 1024) (q : Fin 512) : EReal :=
  ∑ k : Fin 1024, lhsAt m c t (ix2 p k) * tableAt m c t (ix3 (0 : Fin 1) k q)

/-- Both matrix windows' blocks are real at every point. -/
structure RealBlocks (c : Dev nD) : Prop where
  lhs : ∀ t : Fin cfg0.N, AllReal (lhsAt m c t)
  table : ∀ t : Fin cfg0.N, AllReal (tableAt m c t)

/-- After a first step the scratch is the accumulating store over the zero block. -/
theorem scratch_start (c : Dev nD) (t : Fin cfg0.N) (h0 : t.val % 4 = 0) :
    (outsAt0 m c t.val t.isLt).2 = k0_pay2 (F := Ideal) (lhsAt m c t) (tableAt m c t) (k0_pay1 (F := Ideal)) := by
  have h1 : ¬t.val % 4 = 3 := by omega
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- After any later step it is the accumulating store over what the point before left. -/
theorem scratch_next (c : Dev nD) (t : Fin cfg0.N) (h0 : ¬t.val % 4 = 0) :
    (outsAt0 m c t.val t.isLt).2 = k0_pay2 (F := Ideal) (lhsAt m c t) (tableAt m c t) (outsAt0 m c (t.val - 1) (Nat.lt_of_le_of_lt (Nat.sub_le _ _) t.isLt)).2 := by
  by_cases h1 : t.val % 4 = 3
  · rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.scratch_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- After a fourth step the output block is that store plus the bias row. -/
theorem out_fourth (c : Dev nD) (t : Fin cfg0.N) (h1 : t.val % 4 = 3) :
    (outsAt0 m c t.val t.isLt).1
      = k0_pay3 (F := Ideal) (k0_pay2 (F := Ideal) (lhsAt m c t) (tableAt m c t) (outsAt0 m c (t.val - 1) (Nat.lt_of_le_of_lt (Nat.sub_le _ _) t.isLt)).2) (biasAt m c t) := by
  have h0 : ¬t.val % 4 = 0 := by omega
  rw [outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

variable {m}

/-- Entry (p, q) of the scratch after a first step. -/
theorem acc_start {c : Dev nD} (hb : RealBlocks m c) (n : ℕ) (hn : n < cfg0.N) (h0 : n % 4 = 0) (p : Fin 1024) (q : Fin 512) :
    (outsAt0 m c n hn).2 (ix2 p q) = 0 + blockDot m c ⟨n, hn⟩ p q := by
  refine (congrFun (scratch_start m c ⟨n, hn⟩ h0) (ix2 p q)).trans ?_
  refine (Payloads.pay2_apply (lhsAt m c ⟨n, hn⟩) (tableAt m c ⟨n, hn⟩) (k0_pay1 (F := Ideal)) (hb.lhs ⟨n, hn⟩) (hb.table ⟨n, hn⟩) p q).trans ?_
  rw [Payloads.pay1_apply]
  rfl

/-- Entry (p, q) of the scratch after a later step: the entry before plus the point's product. -/
theorem acc_next {c : Dev nD} (hb : RealBlocks m c) (n : ℕ) (hn : n + 1 < cfg0.N) (h0 : ¬(n + 1) % 4 = 0) (p : Fin 1024) (q : Fin 512) :
    (outsAt0 m c (n + 1) hn).2 (ix2 p q) = (outsAt0 m c n (Nat.lt_of_succ_lt hn)).2 (ix2 p q) + blockDot m c ⟨n + 1, hn⟩ p q := by
  refine (congrFun (scratch_next m c ⟨n + 1, hn⟩ h0) (ix2 p q)).trans ?_
  exact Payloads.pay2_apply (lhsAt m c ⟨n + 1, hn⟩) (tableAt m c ⟨n + 1, hn⟩) (outsAt0 m c n (Nat.lt_of_succ_lt hn)).2
    (hb.lhs ⟨n + 1, hn⟩) (hb.table ⟨n + 1, hn⟩) p q

/-- Entry (p, q) of the output block after a fourth step. -/
theorem out_next {c : Dev nD} (hb : RealBlocks m c) (n : ℕ) (hn : n + 1 < cfg0.N) (h1 : (n + 1) % 4 = 3) (p : Fin 1024) (q : Fin 512) :
    (outsAt0 m c (n + 1) hn).1 (ix2 p q)
      = ((outsAt0 m c n (Nat.lt_of_succ_lt hn)).2 (ix2 p q) + blockDot m c ⟨n + 1, hn⟩ p q)
          + biasAt m c ⟨n + 1, hn⟩ (ix2 (0 : Fin 1) q) := by
  refine (congrFun (out_fourth m c ⟨n + 1, hn⟩ h1) (ix2 p q)).trans ?_
  refine (Payloads.pay3_apply _ (biasAt m c ⟨n + 1, hn⟩) p q).trans ?_
  exact congrArg (· + biasAt m c ⟨n + 1, hn⟩ (ix2 (0 : Fin 1) q))
    (Payloads.pay2_apply (lhsAt m c ⟨n + 1, hn⟩) (tableAt m c ⟨n + 1, hn⟩) (outsAt0 m c n (Nat.lt_of_succ_lt hn)).2
      (hb.lhs ⟨n + 1, hn⟩) (hb.table ⟨n + 1, hn⟩) p q)

/-- The chain: at the fourth point of a group starting at n (a multiple of 4) the output block's entry (p, q) is the four
    products added in order onto zero, plus the bias entry. -/
theorem out_chain {c : Dev nD} (hb : RealBlocks m c) (n : ℕ) (hn : n + 3 < cfg0.N) (h0 : n % 4 = 0) (p : Fin 1024) (q : Fin 512) :
    (outsAt0 m c (n + 3) hn).1 (ix2 p q)
      = ((((0 + blockDot m c ⟨n, by omega⟩ p q) + blockDot m c ⟨n + 1, by omega⟩ p q) + blockDot m c ⟨n + 2, by omega⟩ p q)
            + blockDot m c ⟨n + 3, hn⟩ p q)
          + biasAt m c ⟨n + 3, hn⟩ (ix2 (0 : Fin 1) q) := by
  rw [out_next hb (n + 2) hn (by omega) p q, acc_next hb (n + 1) (by omega) (by omega) p q,
    acc_next hb n (by omega) (by omega) p q, acc_start hb n (by omega) h0 p q]

end Cert.KernelIdeal.Accumulate

end
-- ==== Proof.Blocks.lean ====
/-
  Where each window's block sits in its array, and the input blocks read at one entry.

  The grid is 8 x 8 x 4 (row tile i, codebook h, step s of the contraction), walked with s fastest, so the point
  number is t = 32 i + 4 h + s.  At point t the left block is rows 1024 i .. and columns 1024 s ..  of the 8192 x 4096
  matrix; the weight block is rows 1024 s .. of codebook h's 4096 x 512 table; the bias block is columns 512 h .. of the
  bias row; the output block is rows 1024 i .. and columns 512 h ..  of the 8192 x 4096 result.
-/
import proofs.«114664_j3255585210641_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

/-- The left window's block index at point t is (t / 32, t mod 4). -/
theorem idx_lhs : ∀ t : Fin cfg0.N, win0_0.index t (0 : Fin 2) = t.val / 32 ∧ win0_0.index t (1 : Fin 2) = t.val % 4 :=
  (by decide +kernel : ∀ t : Fin grid0.N, win0_0.index t (0 : Fin 2) = t.val / 32 ∧ win0_0.index t (1 : Fin 2) = t.val % 4)

/-- The weight window's block index at point t is (t / 4 mod 8, t mod 4, 0). -/
theorem idx_table : ∀ t : Fin cfg0.N, win0_1.index t (0 : Fin 3) = t.val / 4 % 8 ∧ win0_1.index t (1 : Fin 3) = t.val % 4
    ∧ win0_1.index t (2 : Fin 3) = 0 :=
  (by decide +kernel : ∀ t : Fin grid0.N, win0_1.index t (0 : Fin 3) = t.val / 4 % 8 ∧ win0_1.index t (1 : Fin 3) = t.val % 4
    ∧ win0_1.index t (2 : Fin 3) = 0)

/-- The bias window's block index at point t is (0, t / 4 mod 8). -/
theorem idx_bias : ∀ t : Fin cfg0.N, win0_2.index t (0 : Fin 2) = 0 ∧ win0_2.index t (1 : Fin 2) = t.val / 4 % 8 :=
  (by decide +kernel : ∀ t : Fin grid0.N, win0_2.index t (0 : Fin 2) = 0 ∧ win0_2.index t (1 : Fin 2) = t.val / 4 % 8)

/-- The output window's block index at point t is (t / 32, t / 4 mod 8). -/
theorem idx_out : ∀ t : Fin cfg0.N, win0_3.index t (0 : Fin 2) = t.val / 32 ∧ win0_3.index t (1 : Fin 2) = t.val / 4 % 8 :=
  (by decide +kernel : ∀ t : Fin grid0.N, win0_3.index t (0 : Fin 2) = t.val / 32 ∧ win0_3.index t (1 : Fin 2) = t.val / 4 % 8)

variable (m : (ℓ : Loc nD τ sig) → Buf (Elt Ideal) ℓ)

/-- Entry (p, k) of the left block at point t is entry (1024 (t/32) + p, 1024 (t mod 4) + k) of the left matrix. -/
theorem lhs_block (c : Dev nD) (t : Fin cfg0.N) (p k : Fin 1024) (r : Fin 8192) (s : Fin 4096)
    (hr : r.val = t.val / 32 * 1024 + p.val) (hs : s.val = t.val % 4 * 1024 + k.val) :
    (iblk m c 0 t : Vec Ideal S1024x1024 .f32) (ix2 p k) = (V m c main_v7 : S8192x4096.Idx → EReal) (ix2 r s) := by
  unfold iblk
  rw [View.read_apply]
  show V m c main_v7 _ = V m c main_v7 _
  refine congrArg (V m c main_v7) (funext fun a => Fin.ext ?_)
  match a with
  | ⟨0, _⟩ => show win0_0.index t 0 * 1024 + 1 * p.val = r.val; rw [(idx_lhs t).1, hr]; omega
  | ⟨1, _⟩ => show win0_0.index t 1 * 1024 + 1 * k.val = s.val; rw [(idx_lhs t).2, hs]; omega

/-- Entry (0, k, q) of the weight block at point t is entry (t/4 mod 8, 1024 (t mod 4) + k, q) of the weight table. -/
theorem table_block (c : Dev nD) (t : Fin cfg0.N) (k : Fin 1024) (q : Fin 512) (h : Fin 8) (i : Fin 4096)
    (hh : h.val = t.val / 4 % 8) (hi : i.val = t.val % 4 * 1024 + k.val) :
    (iblk m c 1 t : Vec Ideal S1x1024x512 .f32) (ix3 (0 : Fin 1) k q) = (V m c main_v6 : S8x4096x512.Idx → EReal) (ix3 h i q) := by
  unfold iblk
  rw [View.read_apply]
  show V m c main_v6 _ = V m c main_v6 _
  refine congrArg (V m c main_v6) (funext fun a => Fin.ext ?_)
  match a with
  | ⟨0, _⟩ => show win0_1.index t 0 * 1 + 1 * 0 = h.val; rw [(idx_table t).1, hh]; omega
  | ⟨1, _⟩ => show win0_1.index t 1 * 1024 + 1 * k.val = i.val; rw [(idx_table t).2.1, hi]; omega
  | ⟨2, _⟩ => show win0_1.index t 2 * 512 + 1 * q.val = q.val; rw [(idx_table t).2.2]; omega

/-- Entry (0, q) of the bias block at point t is entry (0, 512 (t/4 mod 8) + q) of the bias row. -/
theorem bias_block (c : Dev nD) (t : Fin cfg0.N) (q : Fin 512) (o : Fin 4096) (ho : o.val = t.val / 4 % 8 * 512 + q.val) :
    (iblk m c 2 t : Vec Ideal S1x512 .f32) (ix2 (0 : Fin 1) q) = (V m c main_v8 : S1x4096.Idx → EReal) (ix2 (0 : Fin 1) o) := by
  unfold iblk
  rw [View.read_apply]
  show V m c main_v8 _ = V m c main_v8 _
  refine congrArg (V m c main_v8) (funext fun a => Fin.ext ?_)
  match a with
  | ⟨0, _⟩ => show win0_2.index t 0 * 1 + 1 * 0 = 0; rw [(idx_bias t).1]
  | ⟨1, _⟩ => show win0_2.index t 1 * 512 + 1 * q.val = o.val; rw [(idx_bias t).2, ho]; omega

end Cert.KernelIdeal.Blocks

end
-- ==== Proof.HostSide.lean ====
/-
  The arrays the kernel's region finds, as functions of the program's arguments.

  Before the region the host reshapes x to an 8192 x 4096 matrix, gathers the weight table from the codebooks
  (each index first wrapped by +256 where negative, as jnp's indexing does), and lays the bias out as one row.
  Every entry of the gathered table is an entry of the codebooks, whatever the indices are.
-/
import proofs.«114664_j3255585210641_2_alg».proof.Proof.Gen.KernelIdeal.Frame
import proofs.«114664_j3255585210641_2_alg».proof.Proof.Reals
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.HostSide

open Cert.KernelIdeal Cert.KernelIdeal.Gen Cert.Reals

/-- The index array the gather reads: the indices, +256 where negative, with a trailing unit axis. -/
def wrapped (x1 : IVec S8x4096 32) : IVec S8x4096x1 32 :=
  broadcastInDim S8x4096x1 ![0, 1] bcast_S8x4096_S8x4096x1_0_1
    (select (cmpi .slt x1 (broadcastInDim S8x4096 ![] bcast_S_S8x4096 (constantI S_ 32 0#32)))
      (addi x1 (broadcastInDim S8x4096 ![] bcast_S_S8x4096 (constantI S_ 32 256#32))) x1)

/-- The gathered weight table: entry (h, i, d) is the codebook h's row number (wrapped index (h, i)), column d. -/
def gathered (x1 : IVec S8x4096 32) (x2 : S8x256x512.Idx → EReal) : S8x4096x512.Idx → EReal :=
  Host.gather gather_S8x256x512_S8x4096x1_S8x4096x512_2_1_0_0_1_2_11512 x2 (wrapped x1)

/-- Each gathered entry is some entry of the codebooks, so a real table gathers to a real table. -/
theorem gathered_real (x1 : IVec S8x4096 32) (x2 : S8x256x512.Idx → EReal) (h2 : AllReal x2) : AllReal (gathered x1 x2) :=
  fun j => h2 (gather_S8x256x512_S8x4096x1_S8x4096x512_2_1_0_0_1_2_11512.operandIdx j (wrapped x1))

variable (m : (ℓ : Loc nD τ sig) → Buf (Elt Ideal) ℓ)

/-- The left matrix the region reads is x reshaped to 8192 rows. -/
theorem V_lhs (c : Dev nD) :
    (V m c main_v7 : S8192x4096.Idx → EReal)
      = shapeCast S8192x4096 (m ((c.tc : Thread nD τ).loc main_arg0)) shapeCasts_S4x2048x4096_S8192x4096 := by
  show StableHlo.after hostOps0 (fun b => m (c, b)) (Proc.devRef .tc main_v7) = _
  after_results
  rfl

/-- The weight table the region reads is the gathered one. -/
theorem V_table (c : Dev nD) :
    (V m c main_v6 : S8x4096x512.Idx → EReal)
      = gathered (m ((c.tc : Thread nD τ).loc main_arg1)) (m ((c.tc : Thread nD τ).loc main_arg2)) := by
  show StableHlo.after hostOps0 (fun b => m (c, b)) (Proc.devRef .tc main_v6) = _
  after_results
  rfl

/-- The bias row the region reads is the bias as a 1 x 4096 array. -/
theorem V_bias (c : Dev nD) :
    (V m c main_v8 : S1x4096.Idx → EReal)
      = shapeCast S1x4096 (m ((c.tc : Thread nD τ).loc main_arg3)) shapeCasts_S4096_S1x4096 := by
  show StableHlo.after hostOps0 (fun b => m (c, b)) (Proc.devRef .tc main_v8) = _
  after_results
  rfl

end Cert.KernelIdeal.HostSide

end
-- ==== Proof.Spec.lean ====
/-
  The result as one function of the arrays, index by index.

  With x of shape [4, 2048, 4096], the gathered weight table W of shape [8, 4096, 512] (codebook, input feature, column)
  and the bias b of shape [4096], the linear layer's entry (a, s, o) is

      sum over j < 4096 of  x(a, s, j) * W(o / 512, j, o mod 512)   +   b(o).

  The kernel computes it on the 8192 x 4096 matrix X = x reshaped, with the bias as a row; `matOut` is that form, its
  contraction written over a position n so that the four runs of 1024 positions can be split off by arithmetic.
-/
import proofs.«114664_j3255585210641_2_alg».proof.Proof.Reals
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Spec

abbrev SX : Shape := ⟨3, ![4, 2048, 4096]⟩
abbrev SW : Shape := ⟨3, ![8, 4096, 512]⟩
abbrev SB : Shape := ⟨1, ![4096]⟩
abbrev SM : Shape := ⟨2, ![8192, 4096]⟩
abbrev SR : Shape := ⟨2, ![1, 4096]⟩

/-- The codebook and the column that output feature o reads. -/
abbrev book (o : Fin 4096) : Fin 8 := ⟨o.val / 512, by have := o.isLt; omega⟩
abbrev col (o : Fin 4096) : Fin 512 := ⟨o.val % 512, Nat.mod_lt _ (by decide)⟩

/-- The linear layer at entry (a, s, o). -/
def linearAt (x : SX.Idx → EReal) (W : SW.Idx → EReal) (b : SB.Idx → EReal) (a : Fin 4) (s : Fin 2048) (o : Fin 4096) : EReal :=
  (∑ j : Fin 4096, x (ix3 a s j) * W (ix3 (book o) j (col o))) + b (ix1 o)

/-- The linear layer as an array. -/
def linear (x : SX.Idx → EReal) (W : SW.Idx → EReal) (b : SB.Idx → EReal) : SX.Idx → EReal :=
  fun i => linearAt x W b ⟨(i 0).val, (i 0).isLt⟩ ⟨(i 1).val, (i 1).isLt⟩ ⟨(i 2).val, (i 2).isLt⟩

/-- The term of the matrix form's contraction at position n (zero past the end). -/
def term (X : SM.Idx → EReal) (W : SW.Idx → EReal) (r : Fin 8192) (o : Fin 4096) (n : ℕ) : EReal :=
  if h : n < 4096 then X (ix2 r ⟨n, h⟩) * W (ix3 (book o) ⟨n, h⟩ (col o)) else 0

/-- The matrix form at entry (r, o). -/
def matOutAt (X : SM.Idx → EReal) (W : SW.Idx → EReal) (B : SR.Idx → EReal) (r : Fin 8192) (o : Fin 4096) : EReal :=
  (∑ j : Fin 4096, term X W r o j.val) + B (ix2 (0 : Fin 1) o)

/-- The matrix form as an array. -/
def matOut (X : SM.Idx → EReal) (W : SW.Idx → EReal) (B : SR.Idx → EReal) : SM.Idx → EReal :=
  fun i => matOutAt X W B ⟨(i 0).val, (i 0).isLt⟩ ⟨(i 1).val, (i 1).isLt⟩

theorem matOut_ix2 (X : SM.Idx → EReal) (W : SW.Idx → EReal) (B : SR.Idx → EReal) (r : Fin 8192) (o : Fin 4096) :
    matOut X W B (ix2 r o) = matOutAt X W B r o := rfl

/-- The term at an in-range position, with the three coordinates named. -/
theorem term_eq (X : SM.Idx → EReal) (W : SW.Idx → EReal) (r : Fin 8192) (o : Fin 4096) (n : ℕ) (j : Fin 4096) (h : Fin 8) (d : Fin 512)
    (hj : j.val = n) (hh : h.val = o.val / 512) (hd : d.val = o.val % 512) :
    term X W r o n = X (ix2 r j) * W (ix3 h j d) := by
  subst hj
  have e2 : book o = h := Fin.ext hh.symm
  have e3 : col o = d := Fin.ext hd.symm
  unfold term
  rw [dif_pos j.isLt, e2, e3]

/-- Four runs of 1024 positions, added in order onto zero, plus the bias entry: the matrix form's entry. -/
theorem matOutAt_of_chain (X : SM.Idx → EReal) (W : SW.Idx → EReal) (B : SR.Idx → EReal) (r : Fin 8192) (o : Fin 4096) :
    ((((0 + ∑ k : Fin 1024, term X W r o (0 + k.val)) + ∑ k : Fin 1024, term X W r o (1024 + k.val))
        + ∑ k : Fin 1024, term X W r o (2048 + k.val)) + ∑ k : Fin 1024, term X W r o (3072 + k.val))
      + B (ix2 (0 : Fin 1) o) = matOutAt X W B r o := by
  unfold matOutAt
  rw [Reals.sum_four_tiles (term X W r o)]
  simp only [Nat.zero_add]

/-- Reshaping x to the matrix, the bias to a row, and the matrix form back to [4, 2048, 4096] gives the linear layer. -/
theorem linear_of_matOut (x : SX.Idx → EReal) (W : SW.Idx → EReal) (b : SB.Idx → EReal)
    (hx : SX.ShapeCasts SM) (hb : SB.ShapeCasts SR) (hr : SM.ShapeCasts SX) :
    shapeCast SX (matOut (shapeCast SM x hx) W (shapeCast SR b hb)) hr = linear x W b := by
  funext i
  obtain ⟨a, s, o, rfl⟩ : ∃ (a : Fin 4) (s : Fin 2048) (o : Fin 4096), i = ix3 a s o := ⟨i 0, i 1, i 2, eq_ix3 i⟩
  have hr' : a.val * 2048 + s.val < 8192 := by have := a.isLt; have := s.isLt; omega
  rw [shapeCast_apply _ hr (ix3 a s o) (ix2 ⟨a.val * 2048 + s.val, hr'⟩ o) (by
    rw [Shape.rowMajor_val_three, Shape.rowMajor_val_two]
    show (a.val * 2048 + s.val) * 4096 + o.val = (a.val * 2048 + s.val) * 4096 + o.val
    rfl)]
  rw [matOut_ix2]
  show matOutAt _ W _ _ o = linearAt x W b a s o
  unfold matOutAt linearAt
  rw [shapeCast_a_1a_apply b hb (0 : Fin 1) o]
  refine congrArg (· + b (ix1 o)) (Finset.sum_congr rfl fun j _ => ?_)
  rw [term_eq _ W _ o j.val j (book o) (col o) rfl rfl rfl]
  refine congrArg (· * W (ix3 (book o) j (col o))) ?_
  exact shapeCast_apply x hx (ix2 ⟨a.val * 2048 + s.val, hr'⟩ j) (ix3 a s j) (by
    rw [Shape.rowMajor_val_three, Shape.rowMajor_val_two]
    show (a.val * 2048 + s.val) * 4096 + j.val = (a.val * 2048 + s.val) * 4096 + j.val
    rfl)

end Cert.Spec

end
-- ==== Proof.Result.lean ====
/-
  The kernel's result array.

  A write-back happens at the fourth point of each group of four: the output block then holds, entry by entry, the four
  block products of the group added in order onto zero, plus the bias.  Read through the windows' positions these are
  the four runs of 1024 terms of the matrix form's contraction at the entry's global position, so each flushed block is
  the matrix form's block; the 64 write-back points tile the 8192 x 4096 result, so the array ends at the matrix form;
  the reshape after the region makes it the linear layer.
-/
import proofs.«114664_j3255585210641_2_alg».proof.Proof.Gen.KernelIdeal.Frame
import proofs.«114664_j3255585210641_2_alg».proof.Proof.Accumulate
import proofs.«114664_j3255585210641_2_alg».proof.Proof.Blocks
import proofs.«114664_j3255585210641_2_alg».proof.Proof.HostSide
import proofs.«114664_j3255585210641_2_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Reals Cert.Spec

variable (m : (ℓ : Loc nD τ sig) → Buf (Elt Ideal) ℓ)

/-- The three arrays the region reads, as arrays of extended reals. -/
abbrev X7 (c : Dev nD) : SM.Idx → EReal := V m c main_v7
abbrev W6 (c : Dev nD) : SW.Idx → EReal := V m c main_v6
abbrev B8 (c : Dev nD) : SR.Idx → EReal := V m c main_v8

/-- A reshape of a real array is real. -/
theorem shapeCast_real {s t : Shape} (x : s.Idx → EReal) (h : s.ShapeCasts t) (hx : AllReal x) : AllReal (shapeCast t x h) :=
  fun j => by unfold shapeCast; exact hx _

/-- Real x and real codebooks make both matrix windows' blocks real at every point. -/
theorem realBlocks (c : Dev nD) (h0 : AllReal (m ((c.tc : Thread nD τ).loc main_arg0) : S4x2048x4096.Idx → EReal))
    (h2 : AllReal (m ((c.tc : Thread nD τ).loc main_arg2) : S8x256x512.Idx → EReal)) : Accumulate.RealBlocks m c where
  lhs := fun t y => by
    have hX : AllReal (X7 m c) := by
      unfold X7; rw [HostSide.V_lhs m c]; exact shapeCast_real _ _ h0
    show ∃ r : ℝ, iblk m c 0 t y = (r : EReal)
    unfold iblk
    rw [View.read_apply]
    exact hX _
  table := fun t y => by
    have hW : AllReal (W6 m c) := by
      unfold W6; rw [HostSide.V_table m c]; exact HostSide.gathered_real _ _ h2
    show ∃ r : ℝ, iblk m c 1 t y = (r : EReal)
    unfold iblk
    rw [View.read_apply]
    exact hW _

/-- The product of the two blocks at point t, entry (p, q), is the run of 1024 terms starting at 1024 (t mod 4) of the
    contraction at the entry's global position (r, o). -/
theorem blockDot_eq (c : Dev nD) (t : Fin cfg0.N) (p : Fin 1024) (q : Fin 512) (r : Fin 8192) (o : Fin 4096) (off : ℕ)
    (hr : r.val = t.val / 32 * 1024 + p.val) (ho : o.val = t.val / 4 % 8 * 512 + q.val) (hoff : off = t.val % 4 * 1024) :
    Accumulate.blockDot m c t p q = ∑ k : Fin 1024, term (X7 m c) (W6 m c) r o (off + k.val) := by
  unfold Accumulate.blockDot
  refine Finset.sum_congr rfl fun k _ => ?_
  have hk : off + k.val < 4096 := by have := k.isLt; omega
  have hh : t.val / 4 % 8 < 8 := Nat.mod_lt _ (by decide)
  have hq := q.isLt
  refine ((congrArg₂ (fun a b : EReal => a * b) (Blocks.lhs_block m c t p k r ⟨off + k.val, hk⟩ hr (by show off + k.val = _; omega))
    (Blocks.table_block m c t k q ⟨t.val / 4 % 8, hh⟩ ⟨off + k.val, hk⟩ rfl (by show off + k.val = _; omega))).trans
    (term_eq (X7 m c) (W6 m c) r o (off + k.val) ⟨off + k.val, hk⟩ ⟨t.val / 4 % 8, hh⟩ q rfl
      (by show t.val / 4 % 8 = o.val / 512; omega) (by show q.val = o.val % 512; omega)).symm)

/-- Entry (p, q) of the output block at point t sits at (1024 (t/32) + p, 512 (t/4 mod 8) + q) of the result. -/
theorem out_emb (t : Fin cfg0.N) (p : Fin 1024) (q : Fin 512) (r : Fin 8192) (o : Fin 4096)
    (hr : r.val = t.val / 32 * 1024 + p.val) (ho : o.val = t.val / 4 % 8 * 512 + q.val) :
    ((cfg0.win 3).blk t).view.emb (ix2 p q) = ix2 r o := by
  funext a
  apply Fin.ext
  match a with
  | ⟨0, _⟩ => show win0_3.index t 0 * 1024 + 1 * p.val = r.val; rw [(Blocks.idx_out t).1, hr]; omega
  | ⟨1, _⟩ => show win0_3.index t 1 * 512 + 1 * q.val = o.val; rw [(Blocks.idx_out t).2, ho]; omega

variable {m}

/-- At a write-back point t = n + 3 (n a multiple of 4) the output block's entry (p, q) is the group's chain. -/
theorem out_at {c : Dev nD} (hb : Accumulate.RealBlocks m c) (t : Fin cfg0.N) (n : ℕ) (hn : t.val = n + 3) (h0 : n % 4 = 0)
    (p : Fin 1024) (q : Fin 512) :
    (outsAt0 m c t.val t.isLt).1 (ix2 p q)
      = ((((0 + Accumulate.blockDot m c ⟨n, by have := t.isLt; omega⟩ p q) + Accumulate.blockDot m c ⟨n + 1, by have := t.isLt; omega⟩ p q)
            + Accumulate.blockDot m c ⟨n + 2, by have := t.isLt; omega⟩ p q) + Accumulate.blockDot m c t p q)
          + Accumulate.biasAt m c t (ix2 (0 : Fin 1) q) := by
  obtain ⟨tv, ht⟩ := t
  dsimp only at hn
  subst hn
  exact Accumulate.out_chain hb n ht h0 p q

/-- What a write-back point flushes is its block of the matrix form of the arrays the region reads. -/
theorem flushed_eq {c : Dev nD} (hb : Accumulate.RealBlocks m c) (t : Fin cfg0.N) (hf : (cfg0.win 3).flush t = true) :
    (dats m 0 c).flushed 3 t = ((cfg0.win 3).blk t).view.read (Elt Ideal) (matOut (X7 m c) (W6 m c) (B8 m c)) := by
  have h3 : t.val % 4 = 3 := (flush0_3 t).mp hf
  have hN : t.val < 256 := lt_of_lt_of_eq t.isLt N_0
  show (cfg0.win 3).cut (grid0.coords t) ((dats m 0 c).after 3 t) = _
  rw [after0_3]
  funext j
  obtain ⟨p, q, rfl⟩ : ∃ (p : Fin 1024) (q : Fin 512), j = ix2 p q := ⟨j 0, j 1, eq_ix2 j⟩
  have hp := p.isLt
  have hq := q.isLt
  have hrb : t.val / 32 * 1024 + p.val < 8192 := by omega
  have hob : t.val / 4 % 8 * 512 + q.val < 4096 := by omega
  show (outsAt0 m c t.val t.isLt).1 (ix2 p q) = matOut (X7 m c) (W6 m c) (B8 m c) (((cfg0.win 3).blk t).view.emb (ix2 p q))
  rw [out_emb t p q ⟨_, hrb⟩ ⟨_, hob⟩ rfl rfl, matOut_ix2, ← matOutAt_of_chain]
  obtain ⟨n, hn⟩ : ∃ n, t.val = n + 3 := ⟨t.val - 3, by omega⟩
  have hn0 : n % 4 = 0 := by omega
  rw [out_at hb t n hn hn0 p q]
  rw [blockDot_eq m c ⟨n, by omega⟩ p q ⟨_, hrb⟩ ⟨_, hob⟩ 0 (by show t.val / 32 * 1024 + p.val = n / 32 * 1024 + p.val; omega)
      (by show t.val / 4 % 8 * 512 + q.val = n / 4 % 8 * 512 + q.val; omega) (by show 0 = n % 4 * 1024; omega),
    blockDot_eq m c ⟨n + 1, by omega⟩ p q ⟨_, hrb⟩ ⟨_, hob⟩ 1024 (by show t.val / 32 * 1024 + p.val = (n + 1) / 32 * 1024 + p.val; omega)
      (by show t.val / 4 % 8 * 512 + q.val = (n + 1) / 4 % 8 * 512 + q.val; omega) (by show 1024 = (n + 1) % 4 * 1024; omega),
    blockDot_eq m c ⟨n + 2, by omega⟩ p q ⟨_, hrb⟩ ⟨_, hob⟩ 2048 (by show t.val / 32 * 1024 + p.val = (n + 2) / 32 * 1024 + p.val; omega)
      (by show t.val / 4 % 8 * 512 + q.val = (n + 2) / 4 % 8 * 512 + q.val; omega) (by show 2048 = (n + 2) % 4 * 1024; omega),
    blockDot_eq m c t p q ⟨_, hrb⟩ ⟨_, hob⟩ 3072 rfl rfl (by omega)]
  exact congrArg (_ + ·) (Blocks.bias_block m c t q ⟨_, hob⟩ rfl)

/-- An index of the result matrix is in point t's block iff each coordinate is in the block's range on its axis. -/
theorem mem_blk (t : Fin cfg0.N) (i : S8192x4096.Idx) :
    i ∈ ((cfg0.win 3).blk t).view.set
      ↔ ∀ a : Fin 2, win0_3.index t a * S1024x512.size a ≤ (i a).val ∧ (i a).val < win0_3.index t a * S1024x512.size a + S1024x512.size a := by
  show i ∈ ((View.whole main_v9).slice (win0_3.rect t)).set ↔ _
  rw [View.set_slice_whole, Rect.mem_set_unit]
  exact Iff.rfl

/-- Every entry (r, o) of the result matrix is in the block of the write-back point 32 (r / 1024) + 4 (o / 512) + 3. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 256 := N_0
  have ht : (i 0).val / 1024 * 32 + (i 1).val / 512 * 4 + 3 < cfg0.N := by rw [hN]; omega
  refine ⟨⟨(i 0).val / 1024 * 32 + (i 1).val / 512 * 4 + 3, ht⟩, (flush0_3 _).mpr (by
    show ((i 0).val / 1024 * 32 + (i 1).val / 512 * 4 + 3) % 4 = 3; omega), ?_⟩
  rw [mem_blk]
  intro a
  match a with
  | ⟨0, _⟩ =>
    show win0_3.index _ 0 * 1024 ≤ (i 0).val ∧ (i 0).val < win0_3.index _ 0 * 1024 + 1024
    rw [(Blocks.idx_out _).1]
    show ((i 0).val / 1024 * 32 + (i 1).val / 512 * 4 + 3) / 32 * 1024 ≤ (i 0).val
      ∧ (i 0).val < ((i 0).val / 1024 * 32 + (i 1).val / 512 * 4 + 3) / 32 * 1024 + 1024
    omega
  | ⟨1, _⟩ =>
    show win0_3.index _ 1 * 512 ≤ (i 1).val ∧ (i 1).val < win0_3.index _ 1 * 512 + 512
    rw [(Blocks.idx_out _).2]
    show ((i 0).val / 1024 * 32 + (i 1).val / 512 * 4 + 3) / 4 % 8 * 512 ≤ (i 1).val
      ∧ (i 1).val < ((i 0).val / 1024 * 32 + (i 1).val / 512 * 4 + 3) / 4 % 8 * 512 + 512
    omega

/-- The result matrix: the 64 write-back points' blocks tile it, so it ends at the matrix form. -/
theorem final {c : Dev nD} (hb : Accumulate.RealBlocks m c) :
    (dats m 0 c).arrAt 3 cfg0.N = matOut (X7 m c) (W6 m c) (B8 m c) :=
  (dats m 0 c).arrAt_eq_of_cover 3 (matOut (X7 m c) (W6 m c) (B8 m c)) (flushed_eq hb) fun i => covered i

variable (m)

/-- The reshape after the region reads the result matrix. -/
theorem tail_eq (c : Dev nD) :
    Pipeline.afterTail₀ cfgs (dats m) 0 (V0 m) [hostOps1] c main_v10
      = shapeCast S4x2048x4096 ((dats m 0 c).arrAt 3 cfg0.N) shapeCasts_S8192x4096_S4x2048x4096 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = (dats m 0 c).arrAt 3 cfg0.N := Pipeline.withArrays_arr spec0 launch0.win.arr_inj c _ _ 3
  rw [e]
  rfl

/-- The run, read: under real x and codebooks, every weakly fair execution ends with the result at the linear layer of the
    arguments (over the gathered table) and the arguments unchanged. -/
theorem run (ρ : Dev nD → PrngReg)
    (hreal : ∀ c : Dev nD, AllReal (m ((c.tc : Thread nD τ).loc main_arg0) : S4x2048x4096.Idx → EReal)
      ∧ AllReal (m ((c.tc : Thread nD τ).loc main_arg2) : S8x256x512.Idx → EReal)) :
    θ_run defs (onTc (τ := τ) (main (F := Ideal))) ⟨m, fun _ => 0, ρ⟩ fun r => ∀ c : Dev nD,
      r.2.mem ((c.tc : Thread nD τ).loc main_v10)
          = linear (m ((c.tc : Thread nD τ).loc main_arg0)) (HostSide.gathered (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨by
      refine (((h c).2 main_v10 (Pipeline.mem_restRefs_of main_v10 (by decide) (by decide))).trans (tail_eq m c)).trans ?_
      rw [final (realBlocks m c (hreal c).1 (hreal c).2)]
      show shapeCast S4x2048x4096 (matOut (X7 m c) (W6 m c) (B8 m c)) shapeCasts_S8192x4096_S4x2048x4096 = _
      unfold X7 W6 B8
      rw [HostSide.V_lhs m c, HostSide.V_table m c, HostSide.V_bias m c]
      exact linear_of_matOut _ _ _ shapeCasts_S4x2048x4096_S8192x4096 shapeCasts_S4096_S1x4096 shapeCasts_S8192x4096_S4x2048x4096,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

end Cert.KernelIdeal.Result

end
-- ==== Proof.RefRead.lean ====
/-
  The reference side.  The reference gathers the weight table from the codebooks, lays it out as a 4096 x 4096 matrix
  M with M[512 h + d, i] = gathered[h, i, d], and returns x · Mᵀ + bias.  Entry (a, s, o) is therefore the sum over j of
  x(a, s, j) * gathered(o / 512, j, o mod 512), plus bias(o): the linear layer of the specification, over the
  reference's own gathered table.
-/
import proofs.«114664_j3255585210641_2_alg».proof.Proof.Gen.ReferenceIdeal.Read
import proofs.«114664_j3255585210641_2_alg».proof.Proof.Spec

noncomputable section

open Idealize.ShloMosaic Idealize.ShloMosaic.ValueIdx

namespace Cert.ReferenceIdeal.RefSide

open Cert.ReferenceIdeal Cert.ReferenceIdeal.Read Cert.Spec

/-- The reference's result, as a function of its four arguments, is the linear layer over its gathered table. -/
theorem ref_is_linear (x0 : S4x2048x4096.Idx → EReal) (x1 : IVec S8x4096 32) (x2 : S8x256x512.Idx → EReal) (x3 : S4096.Idx → EReal) :
    val_main_v12 (F := Ideal) x0 x1 x2 x3 = linear x0 (val_main_v6 (F := Ideal) x1 x2) x3 := by
  funext i
  obtain ⟨a, s, o, rfl⟩ : ∃ (a : Fin 4) (s : Fin 2048) (o : Fin 4096), i = ix3 a s o := ⟨i 0, i 1, i 2, eq_ix3 i⟩
  rw [val_main_v12_apply, val_main_v9_apply, val_main_v11_apply, val_main_v10_apply]
  show (∑ k : Fin 4096, x0 (lidx_main_v9 (ix3 a s o) k) * val_main_v8 (F := Ideal) x1 x2 (ridx_main_v9 (ix3 a s o) k))
      + x3 (idx_main_v10 (idx_main_v11 (ix3 a s o))) = linearAt x0 (val_main_v6 (F := Ideal) x1 x2) x3 a s o
  unfold linearAt
  have eb : idx_main_v10 (idx_main_v11 (ix3 a s o)) = ix1 o := funext fun d => Fin.ext (by
    match d with
    | ⟨0, _⟩ => rfl)
  rw [eb]
  refine congrArg (· + x3 (ix1 o)) (Finset.sum_congr rfl fun k _ => ?_)
  rw [val_main_v8_apply, val_main_v7_apply]
  have ho := o.isLt
  have hk := k.isLt
  have e1 : lidx_main_v9 (ix3 a s o) k = ix3 a s k := funext fun d => Fin.ext (by
    match d with
    | ⟨0, _⟩ => rfl
    | ⟨1, _⟩ => rfl
    | ⟨2, _⟩ => rfl)
  have e2 : idx_main_v7 (idx_main_v8 (ridx_main_v9 (ix3 a s o) k)) = ix3 (book o) k (col o) := funext fun d => Fin.ext (by
    match d with
    | ⟨0, _⟩ => show (o.val * 4096 + k.val) / 2097152 = o.val / 512; omega
    | ⟨1, _⟩ => show (o.val * 4096 + k.val) % 4096 = k.val; omega
    | ⟨2, _⟩ => show (o.val * 4096 + k.val) / 4096 % 512 = o.val % 512; omega)
  rw [e1, e2]

end Cert.ReferenceIdeal.RefSide

end
-- ==== Proof.lean ====
/-
  The proof of `Cert.Claim`: a linear layer whose weight is gathered from codebooks, y = x · Wᵀ + bias.

  The kernel tiles the 8192 x 4096 result into 1024 x 512 blocks, one codebook per column tile, and walks the contraction
  of 4096 in four steps of 1024, keeping the running block in a scratch buffer.  Each step adds the product of the
  step's blocks, computed as three matrix products of "high" and "low" parts of the operands: a high part is the entry
  rounded to a shorter format and back, a low part the entry minus its high part.  On the extended reals a change of
  format is the identity, so a high part is the entry itself and a low part is  a - a.

  * The two low-part products vanish because  a - a = 0  for a real a.  This is where the precondition is used: x and the
    codebooks hold no infinity, and every gathered weight is a codebook entry, so both operands are real.
  * The four steps add up, in order, to the reference's one sum over 4096: commutativity and associativity only.
  * Both programs compute the gathered table by the same operations, so it is carried as one array, never opened.

  The three frames are the generated ones (the reference's is its generated run with the result dropped); the two
  `preserves` conjuncts are the format round trip's rule at the two block shapes.
-/
import proofs.«114664_j3255585210641_2_alg».proof.Defs
import proofs.«114664_j3255585210641_2_alg».proof.Proof.Gen.Kernel
import proofs.«114664_j3255585210641_2_alg».proof.Proof.Gen.Kernel.Frame
import proofs.«114664_j3255585210641_2_alg».proof.Proof.Gen.KernelIdeal
import proofs.«114664_j3255585210641_2_alg».proof.Proof.Gen.KernelIdeal.Frame
import proofs.«114664_j3255585210641_2_alg».proof.Proof.Gen.ReferenceIdeal
import proofs.«114664_j3255585210641_2_alg».proof.Proof.Gen.ReferenceIdeal.Run
import proofs.«114664_j3255585210641_2_alg».proof.Proof.Gen.ReferenceIdeal.Read
import proofs.«114664_j3255585210641_2_alg».proof.Proof.Gen.Pre_finite_inputs
import proofs.«114664_j3255585210641_2_alg».proof.Proof.Finite
import proofs.«114664_j3255585210641_2_alg».proof.Proof.Result
import proofs.«114664_j3255585210641_2_alg».proof.Proof.RefRead
import Idealize.ShloMosaic.PureOps.IdealRules

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The two ledger entries: rounding to the shorter format and back is the identity at the ideal values, at the left
    block's shape and at the weight block's. -/
theorem preserves : Cert.preserves_Kernel_KernelIdeal :=
  ⟨IdealRules.truncf_extf.statement _ .f32 .bf16, IdealRules.truncf_extf.statement _ .f32 .bf16⟩

/-- Both programs end at the linear layer of the arguments over the gathered table. -/
theorem algebraic : Cert.algebraic_KernelIdeal_ReferenceIdeal := by
  intro m ρ m' ρ' hpre hagree
  have hreal : ∀ c : Dev Cert.KernelIdeal.nD,
      Cert.Reals.AllReal (m ((c.tc : Thread Cert.KernelIdeal.nD Cert.KernelIdeal.τ).loc Cert.KernelIdeal.main_arg0) : Cert.KernelIdeal.S4x2048x4096.Idx → EReal)
        ∧ Cert.Reals.AllReal (m ((c.tc : Thread Cert.KernelIdeal.nD Cert.KernelIdeal.τ).loc Cert.KernelIdeal.main_arg2) : Cert.KernelIdeal.S8x256x512.Idx → EReal) :=
    fun c => Cert.Pre_finite_inputs.Finite.reals_of_pre _ _ _ _ (hpre c)
  refine ⟨fun c => Cert.Spec.linear (m ((c.tc : Thread Cert.KernelIdeal.nD Cert.KernelIdeal.τ).loc Cert.KernelIdeal.main_arg0))
      (Cert.KernelIdeal.HostSide.gathered (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)),
    Cert.KernelIdeal.Result.run m ρ hreal, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v12_eq, Cert.ReferenceIdeal.RefSide.ref_is_linear, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
